-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x65536x40 : Shape := ⟨3, ![16, 65536, 40]⟩
abbrev S_ : Shape := ⟨0, ![]⟩

class Facts : Prop where
  bcast_S_S16x65536x40 : S_.BroadcastsInDim S16x65536x40 (![] : Fin 0 → Fin S16x65536x40.rank)
  reducesTo_S16x65536x40_S_d0_1_2 : S16x65536x40.ReducesTo [0, 1, 2] S_
  h_S_ : 0 < S_.numel

variable [Facts]

def fn {F : FTy → Type} [FloatOps F] (main_arg0 : FVec F S16x65536x40 .f32) : IVec S_ 1 :=
  let main_v0 : FVec F S16x65536x40 .f32 := Host.absf main_arg0
  let main_cst : FVec F S_ .f32 := constant S_ .f32 0x7F800000#32
  let main_v1 : FVec F S16x65536x40 .f32 := broadcastInDim S16x65536x40 ![] bcast_S_S16x65536x40 main_cst
  let main_v2 : IVec S16x65536x40 1 := cmpf .olt main_v0 main_v1
  let main_c : IVec S_ 1 := constantI S_ 1 1#1
  let main_v3 : IVec S_ 1 := (fun x v => Host.reduce IntOp.andi x v reducesTo_S16x65536x40_S_d0_1_2 h_S_) main_v2 main_c
  main_v3
-- ==== Kernel.lean ====
abbrev S16x65536x40 : Shape := ⟨3, ![16, 65536, 40]⟩
abbrev S1x8192x40 : Shape := ⟨3, ![1, 8192, 40]⟩
abbrev S8192x40 : Shape := ⟨2, ![8192, 40]⟩
abbrev S8192x39 : Shape := ⟨2, ![8192, 39]⟩
abbrev S8192x1 : Shape := ⟨2, ![8192, 1]⟩

abbrev nBuf : Space → Nat
  | .hbm => 2
  | .vmem => 4
  | .smem => 0
  | _ => 0

abbrev bufTy : (tb : Table) → Fin (tcTables nBuf tb) → BufTy
  | .hbm, ⟨0, _⟩ => ⟨S16x65536x40, .f32⟩
  | .hbm, ⟨1, _⟩ => ⟨S16x65536x40, .f32⟩
  | .local _ .vmem, ⟨0, _⟩ => ⟨S1x8192x40, .f32⟩
  | .local _ .vmem, ⟨1, _⟩ => ⟨S1x8192x40, .f32⟩
  | .local _ .vmem, ⟨2, _⟩ => ⟨S1x8192x40, .f32⟩
  | .local _ .vmem, ⟨3, _⟩ => ⟨S1x8192x40, .f32⟩
  | _, _ => ⟨S16x65536x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x40 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x40 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x8192x40_S1x8192x40_0_0_0 : ∀ a, (![0, 0, 0] : Fin 3 → Nat) a + S1x8192x40.size a ≤ S1x8192x40.size a
  h_S1x8192x40 : 0 < S1x8192x40.numel
  shapeCasts_S1x8192x40_S8192x40 : S1x8192x40.ShapeCasts S8192x40
  slices_S8192x40_o0_1_S8192x39 : S8192x40.Slices ![0, 1] S8192x39
  concatenates_S8192x39_S8192x1_S8192x40_d1 : Shape.Concatenates [S8192x39, S8192x1] S8192x40 1
  shapeCasts_S8192x40_S1x8192x40 : S8192x40.ShapeCasts S1x8192x40
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x40.size a ≤ S16x65536x40.size a
  hwx0_0 : ∀ i : grid0.Coords, EltTy.bits .f32 = 32 ∨ (Rect.block (s := S16x65536x40) S1x8192x40.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192x40.size a ≤ S16x65536x40.size a
  hwx0_1 : ∀ i : grid0.Coords, EltTy.bits .f32 = 32 ∨ (Rect.block (s := S16x65536x40) S1x8192x40.size (cc0_transform_1 i) (hinb0_1 i)).WholeWords (EltTy.packing .f32)

variable [Facts₀]

abbrev win0_0 : Pipeline.Window sig grid0 :=
  Pipeline.Window.ofSpec (Memref.whole main_arg0) S1x8192x40.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8192x40.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x65536x40 : Shape := ⟨3, ![16, 65536, 40]⟩
abbrev S16x65536x39 : Shape := ⟨3, ![16, 65536, 39]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S16x65536x40, .f32⟩
  | .hbm, ⟨1, _⟩ => ⟨S16x65536x39, .f32⟩
  | .hbm, ⟨2, _⟩ => ⟨S_, .i32⟩
  | .hbm, ⟨3, _⟩ => ⟨S_, .f32⟩
  | .hbm, ⟨4, _⟩ => ⟨S16x65536x40, .f32⟩
  | .hbm, ⟨5, _⟩ => ⟨S_, .f32⟩
  | .hbm, ⟨6, _⟩ => ⟨S16x65536x40, .f32⟩
  | .hbm, ⟨7, _⟩ => ⟨S16x65536x40, .f32⟩
  | .hbm, ⟨8, _⟩ => ⟨S16x65536x40, .f32⟩
  | _, _ => ⟨S16x65536x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  slices_S16x65536x40_S16x65536x39_0_0_1 : S16x65536x40.Slices ![0, 0, 1] S16x65536x39
  pads_S16x65536x39_S16x65536x40_000_000_010 : S16x65536x39.Pads (![0, 0, 0] : Fin 3 → Nat) ![0, 0, 1] ![0, 0, 0] S16x65536x40
  h_S_ : 0 < S_.numel
  bcast_S_S16x65536x40 : S_.BroadcastsInDim S16x65536x40 (![] : Fin 0 → Fin S16x65536x40.rank)

variable [Facts₀]

class Facts : Prop extends Facts₀ where

variable [Facts]
-- ==== Proof.Warp.lean ====
/-
  One pass of the first-order all-pass recursion along the coefficient axis: every row of 40 coefficients
  b₀ … b₃₉ becomes b_k + α · b_{k+1} for k < 39, and the last coefficient b₃₉ is kept (it is b₃₉ + α · 0).
  The multiplier α is kept as the binary word both programs print; it is never evaluated.
  The function is stated once for arrays of any two leading extents, so that it can be read both on the whole
  array and on one block of rows; an array of rows cut out of a larger one, row by row, commutes with it.
-/
import Idealize.ShloMosaic.PureOps.Ideal
import Idealize.ShloMosaic.PureOps.Ideal.Laws
import Idealize.ShloMosaic.Lib.ValueIdx

noncomputable section

namespace Cert.Warp

open Idealize.ShloMosaic Idealize.ShloMosaic.ValueIdx

/-- The multiplier α, as the f32 word the two programs share. -/
abbrev alpha : EReal := Ideal.ofBits .f32 0x3ED70A3D#32

/-- The position after `k` in a row of 40. At the last position it wraps to the first; that value is never used. -/
def nxt (k : Fin 40) : Fin 40 := ⟨(k.val + 1) % 40, Nat.mod_lt _ (by norm_num)⟩

/-- Before the last position, the next position is one further. -/
theorem nxt_val (k : Fin 40) (h : k.val < 39) : (nxt k).val = k.val + 1 := by
  show (k.val + 1) % 40 = k.val + 1
  omega

/-- Coefficient `k` of row `(a, b)` after the pass: b_k + α · b_{k+1}, with b₄₀ read as 0. -/
def row {n0 n1 : Nat} (x : (⟨3, ![n0, n1, 40]⟩ : Shape).Idx → EReal) (a : Fin n0) (b : Fin n1) (k : Fin 40) : EReal :=
  x (ix3 a b k) + alpha * (if k.val < 39 then x (ix3 a b (nxt k)) else 0)

/-- The pass on a whole array of rows. -/
def warp {n0 n1 : Nat} (x : (⟨3, ![n0, n1, 40]⟩ : Shape).Idx → EReal) : (⟨3, ![n0, n1, 40]⟩ : Shape).Idx → EReal :=
  fun i => row x (i 0) (i 1) (i 2)

theorem warp_ix3 {n0 n1 : Nat} (x : (⟨3, ![n0, n1, 40]⟩ : Shape).Idx → EReal) (a : Fin n0) (b : Fin n1) (k : Fin 40) :
    warp x (ix3 a b k) = row x a b k := rfl

/-- Rows cut out of a larger array: if `e` sends row `(a, b)` of the small array to ONE row of the large one,
    position by position, then the pass on the rows cut out is the pass on the large array, read through `e`. -/
theorem warp_comp {n0 n1 m0 m1 : Nat} (x : (⟨3, ![m0, m1, 40]⟩ : Shape).Idx → EReal)
    (e : (⟨3, ![n0, n1, 40]⟩ : Shape).Idx → (⟨3, ![m0, m1, 40]⟩ : Shape).Idx)
    (he : ∀ (a : Fin n0) (b : Fin n1), ∃ (a' : Fin m0) (b' : Fin m1), ∀ k : Fin 40, e (ix3 a b k) = ix3 a' b' k)
    (y : (⟨3, ![n0, n1, 40]⟩ : Shape).Idx) :
    warp (fun z => x (e z)) y = warp x (e y) := by
  obtain ⟨a, b, k, rfl⟩ : ∃ (a : Fin n0) (b : Fin n1) (k : Fin 40), y = ix3 a b k := ⟨y 0, y 1, y 2, eq_ix3 y⟩
  obtain ⟨a', b', h⟩ := he a b
  rw [h k, warp_ix3, warp_ix3]
  unfold row
  show x (e (ix3 a b k)) + alpha * (if k.val < 39 then x (e (ix3 a b (nxt k))) else 0) = _
  rw [h k, h (nxt k)]

end Cert.Warp

end
-- ==== Proof.BodyWarp.lean ====
/-
  What one grid point's body stores, as a function of the block of rows it loaded: the all-pass pass on that block.
  The body views the block [1, 8192, 40] as a matrix of 8192 rows, cuts columns 1 … 39, appends one column of zeros,
  scales by α, adds the matrix and stores the sum as a [1, 8192, 40] block again. Column `k` of the cut-and-extended
  matrix is column `k + 1` of the matrix while `k < 39` (the first piece) and zero at `k = 39` (the second piece).
-/
import proofs.«180627_j17944373362778_1_alg».proof.Proof.Gen.KernelIdeal.Skeleton
import proofs.«180627_j17944373362778_1_alg».proof.Proof.Warp
import Idealize.ShloMosaic.Lib.Pipeline.Value
import Idealize.ShloMosaic.Lib.ValueLayout

noncomputable section

namespace Cert.KernelIdeal.BodyWarp

open Cert.KernelIdeal Cert.KernelIdeal.Gen
open Idealize.ShloMosaic Idealize.ShloMosaic.ValueIdx Cert.Warp

/-- The block viewed as a matrix: row `r`, column `k` is the block's entry `(0, r, k)`. -/
theorem rows_apply (x0 : FVec Ideal S1x8192x40 .f32) (r : Fin 8192) (k : Fin 40) :
    shapeCast S8192x40 x0 shapeCasts_S1x8192x40_S8192x40 (ix2 r k) = x0 (ix3 (0 : Fin 1) r k) :=
  shapeCast_1ab_ab_apply x0 shapeCasts_S1x8192x40_S8192x40 r k

/-- Columns 1 … 39 of a matrix followed by a column of zeros: column `k` is the next column, or zero after the last. -/
theorem shifted_apply (x1 : FVec Ideal S8192x40 .f32) (r : Fin 8192) (k : Fin 40) :
    concatenate S8192x40 1 [⟨S8192x39, extractStridedSlice S8192x39 ![0, 1] x1 slices_S8192x40_o0_1_S8192x39⟩,
        ⟨S8192x1, broadcast S8192x1 (Scalar.ofBits (F := Ideal) .f32 0x00000000#32)⟩]
      concatenates_S8192x39_S8192x1_S8192x40_d1 (ix2 r k)
      = if k.val < 39 then x1 (ix2 r (nxt k)) else 0 := by
  by_cases hk : k.val < 39
  · rw [if_pos hk]
    refine (concatenate_pair_apply_left (t := S8192x40) (s₁ := S8192x39) (s₂ := S8192x1) (1 : Fin 2)
      (extractStridedSlice S8192x39 ![0, 1] x1 slices_S8192x40_o0_1_S8192x39)
      (broadcast S8192x1 (Scalar.ofBits (F := Ideal) .f32 0x00000000#32))
      concatenates_S8192x39_S8192x1_S8192x40_d1 (ix2 r k) (rfl : S8192x39.rank = S8192x40.rank)
      (ix2 r (⟨k.val, hk⟩ : Fin 39)) (fun ax => ?_)).trans ?_
    · match ax with
      | ⟨0, _⟩ => rfl
      | ⟨1, _⟩ => rfl
    · refine slice2_axis1_apply 1 x1 slices_S8192x40_o0_1_S8192x39 r ⟨k.val, hk⟩ (nxt k) ?_
      rw [nxt_val k hk]
      show k.val + 1 = 1 + k.val
      omega
  · rw [if_neg hk]
    refine (concatenate_pair_apply_right (t := S8192x40) (s₁ := S8192x39) (s₂ := S8192x1) (1 : Fin 2)
      (extractStridedSlice S8192x39 ![0, 1] x1 slices_S8192x40_o0_1_S8192x39)
      (broadcast S8192x1 (Scalar.ofBits (F := Ideal) .f32 0x00000000#32))
      concatenates_S8192x39_S8192x1_S8192x40_d1 (ix2 r k) (rfl : S8192x39.rank = S8192x40.rank)
      (rfl : S8192x1.rank = S8192x40.rank) (ix2 r (0 : Fin 1)) (fun ax hne => ?_) ?_).trans ?_
    · match ax with
      | ⟨0, _⟩ => rfl
      | ⟨1, _⟩ => exact absurd rfl hne
    · show 0 + 39 = k.val
      omega
    · show Ideal.ofBits .f32 0x00000000#32 = 0
      exact Ideal.ofBits_zero_f32

/-- The stored block is the pass on the loaded block. -/
theorem payload_eq (x0 : FVec Ideal S1x8192x40 .f32) : k0_pay1 (F := Ideal) x0 = warp x0 := by
  funext y
  obtain ⟨u, r, k, rfl⟩ : ∃ (u : Fin 1) (r : Fin 8192) (k : Fin 40), y = ix3 u r k := ⟨y 0, y 1, y 2, eq_ix3 y⟩
  obtain rfl : u = 0 := Fin.ext (by omega)
  unfold k0_pay1
  rw [shapeCast_ab_1ab_apply, addf_apply, mulf_apply, broadcast_apply, shifted_apply, warp_ix3]
  simp only [rows_apply]
  rfl

end Cert.KernelIdeal.BodyWarp

end
-- ==== Proof.KernelWarp.lean ====
/-
  From blocks to the whole array. The grid has 16 × 8 points; point `(i, j)` loads rows `8192·j … 8192·j + 8191` of
  batch `i`, all 40 coefficients of each, and writes the same rows of the result. A row never leaves its block, so
  the pass on a block of rows is the pass on the whole array read through the block, and the 128 blocks cover the array:
  after the run the result array is the pass on the argument array.
-/
import proofs.«180627_j17944373362778_1_alg».proof.Proof.Gen.KernelIdeal.Value
import proofs.«180627_j17944373362778_1_alg».proof.Proof.BodyWarp

noncomputable section

namespace Cert.KernelIdeal.KernelWarp

open Cert.KernelIdeal Cert.KernelIdeal.Gen Cert.KernelIdeal.Value
open Idealize.ShloMosaic Idealize.ShloMosaic.TcCoe Idealize.SL.Sem Idealize.ShloMosaic.ValueIdx Cert.Warp
open Idealize.ShloMosaic.Pipeline (Dat)

variable (m : (ℓ : Loc nD τ sig) → Buf (Elt Ideal) ℓ) (ρ : Dev nD → PrngReg)

theorem zero_off : (![0, 0, 0] : Fin 3 → Nat) = fun _ => 0 := funext fun a => by fin_cases a <;> rfl

/-- The two index maps, decided over the 128 points: the input block and the output block of a point are the same
    block `(i, j, 0)`, with `i ≤ 15` and `j ≤ 7`. -/
theorem block_index : ∀ t : Fin cfg0.N,
    win0_0.index t (0 : Fin 3) = win0_1.index t (0 : Fin 3)
    ∧ win0_0.index t (1 : Fin 3) = win0_1.index t (1 : Fin 3)
    ∧ win0_0.index t (2 : Fin 3) = 0 ∧ win0_1.index t (2 : Fin 3) = 0
    ∧ win0_1.index t (0 : Fin 3) ≤ 15 ∧ win0_1.index t (1 : Fin 3) ≤ 7 :=
  (by decide +kernel : ∀ t : Fin grid0.N, _)

/-- Every block `(i, j, 0)` is some point's. -/
theorem block_onto : ∀ (q0 : Fin 16) (q1 : Fin 8), ∃ t : Fin cfg0.N, win0_1.index t = ![q0.val, q1.val, 0] :=
  (by decide +kernel : ∀ (q0 : Fin 16) (q1 : Fin 8), ∃ t : Fin grid0.N, win0_1.index t = ![q0.val, q1.val, 0])

/-- A point's input block and output block sit at the same place of their arrays. -/
theorem emb_in_eq_out (t : Fin cfg0.N) (y : S1x8192x40.Idx) :
    ((cfg0.win 0).blk t).view.emb y = ((cfg0.win 1).blk t).view.emb y := by
  obtain ⟨e0, e1, e2, e3, -, -⟩ := block_index t
  funext a; apply Fin.ext
  match a with
  | ⟨0, _⟩ => show win0_0.index t (0 : Fin 3) * 1 + 1 * (y 0).val = win0_1.index t (0 : Fin 3) * 1 + 1 * (y 0).val; omega
  | ⟨1, _⟩ => show win0_0.index t (1 : Fin 3) * 8192 + 1 * (y 1).val = win0_1.index t (1 : Fin 3) * 8192 + 1 * (y 1).val; omega
  | ⟨2, _⟩ => show win0_0.index t (2 : Fin 3) * 40 + 1 * (y 2).val = win0_1.index t (2 : Fin 3) * 40 + 1 * (y 2).val; omega

/-- A row of a block is ONE row of the array, position by position. -/
theorem emb_row (t : Fin cfg0.N) (a : Fin 1) (b : Fin 8192) :
    ∃ (a' : Fin 16) (b' : Fin 65536), ∀ k : Fin 40, ((cfg0.win 1).blk t).view.emb (ix3 a b k) = ix3 a' b' k := by
  obtain ⟨-, -, -, e3, e4, e5⟩ := block_index t
  refine ⟨⟨win0_1.index t (0 : Fin 3) * 1 + 1 * a.val, by omega⟩, ⟨win0_1.index t (1 : Fin 3) * 8192 + 1 * b.val, by omega⟩, fun k => ?_⟩
  funext ax; apply Fin.ext
  match ax with
  | ⟨0, _⟩ => rfl
  | ⟨1, _⟩ => rfl
  | ⟨2, _⟩ => show win0_1.index t (2 : Fin 3) * 40 + 1 * k.val = k.val; omega

/-- WHAT POINT `t` WRITES BACK is block `t` of the pass on the argument array. -/
theorem flushed_eq (c : Dev nD) (t : Fin cfg0.N) :
    (dats m 0 c).flushed 1 t = ((cfg0.win 1).blk t).view.read (Elt Ideal) (warp (V m c main_arg0)) := by
  rw [Value.flushed1]
  unfold out0_1
  rw [View.canon_unit_zero zero_off]
  simp only [View.ld_unit_zero (S := S1x8192x40) zero_off]
  rw [BodyWarp.payload_eq (iblk m c 0 t)]
  funext j
  show warp (fun y : S1x8192x40.Idx => V m c main_arg0 (((cfg0.win 0).blk t).view.emb y)) j
    = warp (V m c main_arg0) (((cfg0.win 1).blk t).view.emb j)
  rw [show (fun y : S1x8192x40.Idx => V m c main_arg0 (((cfg0.win 0).blk t).view.emb y))
      = (fun y : S1x8192x40.Idx => V m c main_arg0 (((cfg0.win 1).blk t).view.emb y)) from
    funext fun y => congrArg (V m c main_arg0) (emb_in_eq_out t y)]
  exact warp_comp (V m c main_arg0) (fun y : S1x8192x40.Idx => ((cfg0.win 1).blk t).view.emb y) (emb_row t) j

/-- An index of the array is in point `t`'s block iff each coordinate is in the block's range on its axis. -/
theorem mem_blk (t : Fin cfg0.N) (i : S16x65536x40.Idx) :
    i ∈ ((cfg0.win 1).blk t).view.set ↔ ∀ a : Fin 3, win0_1.index t a * S1x8192x40.size a ≤ (i a).val ∧ (i a).val < win0_1.index t a * S1x8192x40.size a + S1x8192x40.size a := by
  show i ∈ ((View.whole main_v0).slice (win0_1.rect t)).set ↔ _
  rw [View.set_slice_whole, Rect.mem_set_unit]
  exact Iff.rfl

/-- The 128 blocks cover the array: row `r` of batch `i` is in the block of point `(i, r / 8192)`. -/
theorem cover (i : S16x65536x40.Idx) :
    ∃ t : Fin cfg0.N, (cfg0.win 1).flush t = true ∧ i ∈ ((cfg0.win 1).blk t).view.set := by
  have hi0 : (i 0).val < 16 := (i 0).isLt
  have hi1 : (i 1).val < 65536 := (i 1).isLt
  have hi2 : (i 2).val < 40 := (i 2).isLt
  obtain ⟨t, ht⟩ := block_onto ⟨(i 0).val, hi0⟩ ⟨(i 1).val / 8192, by omega⟩
  have q0 : win0_1.index t (0 : Fin 3) = (i 0).val := congrFun ht 0
  have q1 : win0_1.index t (1 : Fin 3) = (i 1).val / 8192 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 8192 ≤ (i 1).val ∧ (i 1).val < win0_1.index t (1 : Fin 3) * 8192 + 8192; omega
  | ⟨2, _⟩ => show win0_1.index t (2 : Fin 3) * 40 ≤ (i 2).val ∧ (i 2).val < win0_1.index t (2 : Fin 3) * 40 + 40; omega

/-- THE RESULT ARRAY after the run is the pass on the argument array. -/
theorem final (c : Dev nD) : (dats m 0 c).arrAt 1 cfg0.N = warp (m ((c : Thread nD τ).loc main_arg0)) :=
  (dats m 0 c).arrAt_eq_of_cover 1 (warp (V m c main_arg0)) (fun t _ => flushed_eq m c t) cover

/-- The kernel's run: the result array ends at the pass on the argument array, and the argument is unchanged. -/
theorem run : θ_run defs (onTc (τ := τ) (main (F := Ideal))) ⟨m, fun _ => 0, ρ⟩ fun r => ∀ c : Dev nD,
      r.2.mem ((c : Thread nD τ).loc main_v0) = warp (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.KernelWarp

end
-- ==== Proof.RefWarp.lean ====
/-
  The reference computes the all-pass pass: it cuts coefficients 1 … 39 out of every row, pads the cut rows with one
  zero at the end, scales by α and adds the row itself. Read at coefficient `k` of a row, the padded array is
  coefficient `k + 1` while `k < 39` (inside the cut rows) and the padding value at `k = 39`; the padding value is
  the integer zero converted, the float zero.
-/
import proofs.«180627_j17944373362778_1_alg».proof.Proof.Gen.ReferenceIdeal.Read
import proofs.«180627_j17944373362778_1_alg».proof.Proof.Warp
import Idealize.ShloMosaic.Lib.KernelVsHost

noncomputable section

namespace Cert.ReferenceIdeal.RefWarp

open Cert.ReferenceIdeal Cert.ReferenceIdeal.Gen Cert.ReferenceIdeal.Read
open Idealize.ShloMosaic Idealize.ShloMosaic.ValueIdx Cert.Warp

/-- The value the reference pads with is zero. -/
theorem pad_value (i : S_.Idx) : val_main_call0_v0 (F := Ideal) i = 0 := by
  rw [val_main_call0_v0_apply, val_main_c_apply]
  exact sitofp_zero (φ := .f32)

/-- The cut-and-padded rows at coefficient `k`: the next coefficient, or zero after the last. -/
theorem shifted_apply (x : FVec Ideal S16x65536x40 .f32) (a : Fin 16) (b : Fin 65536) (k : Fin 40) :
    val_main_v1 (F := Ideal) x (ix3 a b k) = if k.val < 39 then x (ix3 a b (nxt k)) else 0 := by
  unfold val_main_v1
  by_cases hk : k.val < 39
  · rw [if_pos hk]
    refine (pad_apply_of_inside ![0, 0, 0] ![0, 0, 1] ![0, 0, 0] (val_main_v0 (F := Ideal) x) (val_main_call0_v0 (F := Ideal))
      pads_S16x65536x39_S16x65536x40_000_000_010 h_S_ (ix3 a b k) (ix3 a b (⟨k.val, hk⟩ : Fin 39)) (fun ax => ?_)).trans ?_
    · match ax with
      | ⟨0, _⟩ => show a.val = 0 + a.val * (0 + 1); omega
      | ⟨1, _⟩ => show b.val = 0 + b.val * (0 + 1); omega
      | ⟨2, _⟩ => show k.val = 0 + k.val * (0 + 1); omega
    · rw [val_main_v0_apply]
      refine congrArg x (funext fun ax => Fin.ext ?_)
      match ax with
      | ⟨0, _⟩ => rfl
      | ⟨1, _⟩ => rfl
      | ⟨2, _⟩ => show 1 + k.val = (nxt k).val; rw [nxt_val k hk]; omega
  · rw [if_neg hk]
    refine (pad_apply_of_not_inside ![0, 0, 0] ![0, 0, 1] ![0, 0, 0] (val_main_v0 (F := Ideal) x) (val_main_call0_v0 (F := Ideal))
      pads_S16x65536x39_S16x65536x40_000_000_010 h_S_ (ix3 a b k) (2 : Fin 3) ?_).trans (pad_value _)
    show ¬(0 ≤ k.val ∧ (k.val - 0) % (0 + 1) = 0 ∧ (k.val - 0) / (0 + 1) < 39)
    omega

/-- The reference's result is the pass on its argument. -/
theorem result_eq (x : FVec Ideal S16x65536x40 .f32) : val_main_v4 (F := Ideal) x = warp x := by
  funext i
  obtain ⟨a, b, k, rfl⟩ : ∃ (a : Fin 16) (b : Fin 65536) (k : Fin 40), i = ix3 a b k := ⟨i 0, i 1, i 2, eq_ix3 i⟩
  rw [val_main_v4_apply, val_main_v3_apply, val_main_v2_apply, val_main_cst_apply, shifted_apply, warp_ix3]
  rfl

end Cert.ReferenceIdeal.RefWarp

end
-- ==== Proof.lean ====
/-
  The kernel and its reference both apply one pass of the first-order all-pass recursion to every row of 40
  coefficients of a [16, 65536, 40] array: coefficient `k` becomes b_k + α · b_{k+1}, the last one is kept.
  The kernel does it block by block, 8192 rows at a time, by cutting columns 1 … 39 of the block and appending a column
  of zeros; the reference does it on the whole array by a slice and a pad with zero. Both multiply by the same word α
  and add, so at the extended reals the two results are the same function of the argument, entry by entry, with no
  arithmetic law needed beyond reading the two cut-and-extend forms at an index (Proof/Warp.lean states the function,
  Proof/BodyWarp.lean and Proof/KernelWarp.lean read the kernel, Proof/RefWarp.lean reads the reference). The ideal
  pass rewrote nothing, so the kernel's idealization is its own text.
-/
import proofs.«180627_j17944373362778_1_alg».proof.Defs
import proofs.«180627_j17944373362778_1_alg».proof.Proof.Gen.Kernel
import proofs.«180627_j17944373362778_1_alg».proof.Proof.Gen.Kernel.Skeleton
import proofs.«180627_j17944373362778_1_alg».proof.Proof.Gen.Kernel.Launch
import proofs.«180627_j17944373362778_1_alg».proof.Proof.Gen.Kernel.Points
import proofs.«180627_j17944373362778_1_alg».proof.Proof.Gen.Kernel.Frame
import proofs.«180627_j17944373362778_1_alg».proof.Proof.Gen.KernelIdeal
import proofs.«180627_j17944373362778_1_alg».proof.Proof.Gen.KernelIdeal.Skeleton
import proofs.«180627_j17944373362778_1_alg».proof.Proof.Gen.KernelIdeal.Launch
import proofs.«180627_j17944373362778_1_alg».proof.Proof.Gen.KernelIdeal.Points
import proofs.«180627_j17944373362778_1_alg».proof.Proof.Gen.KernelIdeal.Frame
import proofs.«180627_j17944373362778_1_alg».proof.Proof.Gen.ReferenceIdeal
import proofs.«180627_j17944373362778_1_alg».proof.Proof.Gen.Pre_finite_inputs
import proofs.«180627_j17944373362778_1_alg».proof.Proof.Gen.KernelIdeal.Value
import proofs.«180627_j17944373362778_1_alg».proof.Proof.Gen.ReferenceIdeal.Run
import proofs.«180627_j17944373362778_1_alg».proof.Proof.Gen.ReferenceIdeal.Read
import proofs.«180627_j17944373362778_1_alg».proof.Proof.KernelWarp
import proofs.«180627_j17944373362778_1_alg».proof.Proof.RefWarp
import Idealize.ShloMosaic.Adequacy
import Idealize.ShloMosaic.Init

noncomputable section

namespace Cert.Proof

open Idealize.ShloMosaic Idealize.SL.Sem

/-- The kernel as printed runs and keeps its argument. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference runs and keeps its argument: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the pass on the shared argument array. -/
theorem algebraic : Cert.algebraic_KernelIdeal_ReferenceIdeal := by
  intro m ρ m' ρ' _ hagree
  refine ⟨_, Cert.KernelIdeal.KernelWarp.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefWarp.result_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
